-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x128x128 : Shape := ⟨3, ![4096, 128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x128x128 : S_.BroadcastsInDim S4096x128x128 (![] : Fin 0 → Fin S4096x128x128.rank)
  reducesTo_S4096x128x128_S_d0_1_2 : S4096x128x128.ReducesTo [0, 1, 2] S_

variable [Facts]

def fn {F : FTy → Type} [FloatOps F] (main_arg0 : FVec F S4096x128 .f32) (main_arg1 : FVec F S4096x128x128 .f32) (main_arg2 : FVec F S4096x128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  let main_v9 : FVec F S4096x128x128 .f32 := Host.absf main_arg2
  let main_cst_2 : FVec F S_ .f32 := constant S_ .f32 0x7F800000#32
  let main_v10 : FVec F S4096x128x128 .f32 := broadcastInDim S4096x128x128 ![] bcast_S_S4096x128x128 main_cst_2
  let main_v11 : IVec S4096x128x128 1 := cmpf .olt main_v9 main_v10
  let main_c_3 : IVec S_ 1 := constantI S_ 1 1#1
  let main_v12 : IVec S_ 1 := (fun x v => Host.reduce IntOp.andi x v reducesTo_S4096x128x128_S_d0_1_2 h_S_) main_v11 main_c_3
  let main_v13 : IVec S_ 1 := andi main_v8 main_v12
  main_v13
-- ==== Kernel.lean ====
abbrev S4096x128 : Shape := ⟨2, ![4096, 128]⟩
abbrev S4096x128x128 : Shape := ⟨3, ![4096, 128, 128]⟩
abbrev S128x128 : Shape := ⟨2, ![128, 128]⟩
abbrev S_ : Shape := ⟨0, ![]⟩
abbrev S64x128x128 : Shape := ⟨3, ![64, 128, 128]⟩
abbrev S8x128x128 : Shape := ⟨3, ![8, 128, 128]⟩
abbrev S1x128x128 : Shape := ⟨3, ![1, 128, 128]⟩

abbrev nBuf : Space → Nat
  | .hbm => 26
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S4096x128x128, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S_, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S4096x128x128, .f32⟩
  | .local _ .vmem, ⟨0, _⟩ => ⟨S64x128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | .local _ .vmem, ⟨4, _⟩ => ⟨S128x128, .f32⟩
  | .local _ .vmem, ⟨5, _⟩ => ⟨S64x128x128, .f32⟩
  | .local _ .vmem, ⟨6, _⟩ => ⟨S64x128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_2 : BitVec 32 := 8#32
  let v3 : BitVec 32 := Scalar.muli arg5 c8_i32_2
  v3
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c8_i32_2 : BitVec 32 := 8#32
  let v3 : BitVec 32 := Scalar.muli arg5 c8_i32_2
  let v4 : BitVec 32 := v3
  let v5 : Index := Scalar.indexCast v4
  let c0_3 : Index := 0#32
  let c0_4 : Index := 0#32
  ![v5.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128 : S_.BroadcastsInDim S128x128 (![] : Fin 0 → Fin S128x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S8x128x128 : 0 < S8x128x128.numel
  bitsLt_bf16_f32 : FTy.bits .bf16 < FTy.bits .f32
  shapeCasts_S128x128_S1x128x128 : S128x128.ShapeCasts S1x128x128
  broadcasts_S1x128x128_S8x128x128 : S1x128x128.Broadcasts S8x128x128
  dot_S8x128x128_S8x128x128_S8x128x128_1_1_2_2_0_0_wf : DotDims.WF S8x128x128 S8x128x128 S8x128x128 [1] [1] [2] [2] [0] [0]
  dot_S8x128x128_S8x128x128_S8x128x128_2_1_1_2_0_0_wf : DotDims.WF S8x128x128 S8x128x128 S8x128x128 [2] [1] [1] [2] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128x128.size a ≤ S64x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S4096x128x128.size a
  hwx0_0 : ∀ i : grid0.Coords, EltTy.bits .f32 = 32 ∨ (Rect.block (s := S4096x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S4096x128x128.size a
  hwx0_1 : ∀ i : grid0.Coords, EltTy.bits .f32 = 32 ∨ (Rect.block (s := S4096x128x128) S64x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S4096x128x128.size a
  hwx0_3 : ∀ i : grid0.Coords, EltTy.bits .f32 = 32 ∨ (Rect.block (s := S4096x128x128) S64x128x128.size (cc0_transform_3 i) (hinb0_3 i)).WholeWords (EltTy.packing .f32)

variable [Facts₀]

def dot_S8x128x128_S8x128x128_S8x128x128_1_1_2_2_0_0 : DotDims S8x128x128 S8x128x128 S8x128x128 where
  lhsContracting := [1]
  rhsContracting := [1]
  lhsNonContracting := [2]
  rhsNonContracting := [2]
  lhsBatch := [0]
  rhsBatch := [0]
  wf := dot_S8x128x128_S8x128x128_S8x128x128_1_1_2_2_0_0_wf
def dot_S8x128x128_S8x128x128_S8x128x128_2_1_1_2_0_0 : DotDims S8x128x128 S8x128x128 S8x128x128 where
  lhsContracting := [2]
  rhsContracting := [1]
  lhsNonContracting := [1]
  rhsNonContracting := [2]
  lhsBatch := [0]
  rhsBatch := [0]
  wf := dot_S8x128x128_S8x128x128_S8x128x128_2_1_1_2_0_0_wf

abbrev win0_0 : Pipeline.Window sig grid0 :=
  Pipeline.Window.ofSpec (Memref.whole main_arg2) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x128x128 : Shape := ⟨3, ![4096, 128, 128]⟩
abbrev S_ : Shape := ⟨0, ![]⟩
abbrev S128x128 : Shape := ⟨2, ![128, 128]⟩
abbrev S1x128x128 : Shape := ⟨3, ![1, 128, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S4096x128x128, .f32⟩
  | .hbm, ⟨3, _⟩ => ⟨S_, .f32⟩
  | .hbm, ⟨4, _⟩ => ⟨S128x128, .f32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S4096x128x128, .f32⟩
  | .hbm, ⟨26, _⟩ => ⟨S4096x128x128, .f32⟩
  | .hbm, ⟨27, _⟩ => ⟨S1x128x128, .f32⟩
  | .hbm, ⟨28, _⟩ => ⟨S4096x128x128, .f32⟩
  | .hbm, ⟨29, _⟩ => ⟨S4096x128x128, .f32⟩
  | .hbm, ⟨30, _⟩ => ⟨S4096x128x128, .f32⟩
  | .hbm, ⟨31, _⟩ => ⟨S4096x128x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S4096x128x128_0_1_2 : S1x128x128.BroadcastsInDim S4096x128x128 (![0, 1, 2] : Fin 3 → Fin S4096x128x128.rank)
  dot_S4096x128x128_S4096x128x128_S4096x128x128_1_1_2_2_0_0_wf : DotDims.WF S4096x128x128 S4096x128x128 S4096x128x128 [1] [1] [2] [2] [0] [0]
  dot_S4096x128x128_S4096x128x128_S4096x128x128_2_1_1_2_0_0_wf : DotDims.WF S4096x128x128 S4096x128x128 S4096x128x128 [2] [1] [1] [2] [0] [0]

variable [Facts₀]

def dot_S4096x128x128_S4096x128x128_S4096x128x128_1_1_2_2_0_0 : DotDims S4096x128x128 S4096x128x128 S4096x128x128 where
  lhsContracting := [1]
  rhsContracting := [1]
  lhsNonContracting := [2]
  rhsNonContracting := [2]
  lhsBatch := [0]
  rhsBatch := [0]
  wf := dot_S4096x128x128_S4096x128x128_S4096x128x128_1_1_2_2_0_0_wf
def dot_S4096x128x128_S4096x128x128_S4096x128x128_2_1_1_2_0_0 : DotDims S4096x128x128 S4096x128x128 S4096x128x128 where
  lhsContracting := [2]
  rhsContracting := [1]
  lhsNonContracting := [1]
  rhsNonContracting := [2]
  lhsBatch := [0]
  rhsBatch := [0]
  wf := dot_S4096x128x128_S4096x128x128_S4096x128x128_2_1_1_2_0_0_wf

class Facts : Prop extends Facts₀ where

variable [Facts]
-- ==== Proof.MaskedProduct.lean ====
/-
  The layer's arithmetic on one batch element, over the extended reals.

  For square matrices `A` (a Cholesky factor), `C` (a covariance) and a mask `μ`, all indexed by one finite type,

      masked μ A C p q  =  Σ_j A p j · ( μ j q · Σ_k ( Σ_j' A j' j · C j' k ) · A k q ),

  that is `A · (μ ∘ (Aᵀ C A))` with `∘` the entrywise product and `Aᵀ C A` taken as `(Aᵀ C) A`.

  One program multiplies by the mask `½·δ − L` (`δ` the identity, `L` the lower triangle of ones) and the other by
  `L − ½·δ` and negates the result. Entry by entry `(−μ)·x = −(μ·x)` and `a·(−x) = −(a·x)` hold for all extended
  reals, but `Σ (−x_j) = −Σ x_j` does not (`⊤ + ⊥ = ⊥` while `−(⊥ + ⊤) = ⊤`): it holds when every `x_j` is a real
  number, which is where finiteness of the inputs is used.
-/
import Idealize.ShloMosaic.PureOps.Ideal

noncomputable section

namespace Cert.GaussLayer

open scoped BigOperators

/-! ## Extended reals that are real numbers -/

/-- An extended real that is a real number: neither infinity. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers, each read as an extended real, is their sum read as an extended real. -/
theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose r hr using h
  exact ⟨∑ i ∈ s, r i, by rw [← coe_sum]; exact Finset.sum_congr rfl fun i _ => hr i⟩

/-- Negation passes through a finite sum of REAL numbers. -/
theorem sum_neg {ι : Type*} (s : Finset ι) {f : ι → EReal} (h : ∀ i, IsReal (f i)) :
    ∑ i ∈ s, -f i = -∑ i ∈ s, f i := by
  choose r hr using h
  have e : ∀ i ∈ s, -f i = (((-r i : ℝ)) : EReal) := fun i _ => by rw [hr i, EReal.coe_neg]
  rw [Finset.sum_congr rfl e, Finset.sum_congr rfl (fun i _ => hr i), coe_sum, coe_sum, Finset.sum_neg_distrib,
    EReal.coe_neg]

/-- The two masks are opposite: `h·e − t = −(t − h·e)` for real numbers. -/
theorem sub_eq_neg_sub {h e t : EReal} (hh : IsReal h) (he : IsReal e) (ht : IsReal t) :
    h * e - t = -(t - h * e) := by
  obtain ⟨a, rfl⟩ := hh; obtain ⟨b, rfl⟩ := he; obtain ⟨c, rfl⟩ := ht
  rw [← EReal.coe_mul, ← EReal.coe_sub, ← EReal.coe_sub, ← EReal.coe_neg, neg_sub]

/-! ## The masked triple product -/

variable {ι : Type*} [Fintype ι]

/-- `(Aᵀ C)(j, k)`. -/
def gram (A C : ι → ι → EReal) (j k : ι) : EReal := ∑ j', A j' j * C j' k

/-- `((Aᵀ C) A)(j, q)`. -/
def phi (A C : ι → ι → EReal) (j q : ι) : EReal := ∑ k, gram A C j k * A k q

/-- `(A (μ ∘ ((Aᵀ C) A)))(p, q)`. -/
def masked (μ A C : ι → ι → EReal) (p q : ι) : EReal := ∑ j, A p j * (μ j q * phi A C j q)

theorem gram_real {A C : ι → ι → EReal} (hA : ∀ p q, IsReal (A p q)) (hC : ∀ p q, IsReal (C p q)) (j k : ι) :
    IsReal (gram A C j k) :=
  IsReal.sum _ fun j' => (hA j' j).mul (hC j' k)

theorem phi_real {A C : ι → ι → EReal} (hA : ∀ p q, IsReal (A p q)) (hC : ∀ p q, IsReal (C p q)) (j q : ι) :
    IsReal (phi A C j q) :=
  IsReal.sum _ fun k => (gram_real hA hC j k).mul (hA k q)

/-- The product `Aᵀ C` with the two factors of each term exchanged (multiplication of extended reals commutes). -/
theorem gram_comm (A C : ι → ι → EReal) (j k : ι) : ∑ j', C j' k * A j' j = gram A C j k :=
  Finset.sum_congr rfl fun _ _ => mul_comm _ _

/-- THE LAW that joins the two programs: with real entries, multiplying by the opposite mask negates the result. -/
theorem masked_neg {μ A C : ι → ι → EReal} (hμ : ∀ j q, IsReal (μ j q)) (hA : ∀ p q, IsReal (A p q))
    (hC : ∀ p q, IsReal (C p q)) (p q : ι) :
    masked (fun j q => -μ j q) A C p q = -masked μ A C p q := by
  unfold masked
  rw [← sum_neg Finset.univ fun j => (hA p j).mul ((hμ j q).mul (phi_real hA hC j q))]
  exact Finset.sum_congr rfl fun j _ => by rw [neg_mul, mul_neg]

end Cert.GaussLayer

end
-- ==== Proof.Payload.lean ====
/-
  What one trip of the kernel body computes, entry by entry, at the ideal instance.

  A trip takes a slab of eight batch elements of the Cholesky factors (`a`) and of the covariances (`c`), both of
  shape [8, 128, 128], and the mask `w` of shape [128, 128], and stores

      out(b, p, q) = Σ_j a(b,p,j) · ( w(j,q) · Σ_k ( Σ_j' a(b,j',j) · c(b,j',k) ) · a(b,k,q) ),

  the masked triple product of batch element `b`'s two matrices. The roundings to bf16 on the way into each product
  are the identity on the extended reals, each product into the zero accumulator is the plain sum, and the mask is
  re-laid as [1, 128, 128] and repeated over the eight batch elements.
-/
import proofs.«178304_j50002009260129_2_alg».proof.Proof.Gen.KernelIdeal.Skeleton
import proofs.«178304_j50002009260129_2_alg».proof.Proof.MaskedProduct
import Idealize.ShloMosaic.Lib.ValueIdx
import Idealize.ShloMosaic.Lib.ValueLayout
import Idealize.ShloMosaic.PureOps.Ideal.Laws

noncomputable section

namespace Cert.GaussLayer.Body

open Idealize.ShloMosaic Idealize.ShloMosaic.ValueIdx Cert.KernelIdeal Cert.KernelIdeal.Gen Cert.GaussLayer

/-! ## The two batched products read at an entry

Where each operand of a product is read, axis by axis: the batch axis at the entry's batch coordinate, the contracted
axis at the summation index, the remaining axis at the entry's row (left operand) or column (right operand). -/

theorem middle_lhs_0 (i : S8x128x128.Idx) (k : dot_S8x128x128_S8x128x128_S8x128x128_1_1_2_2_0_0.contr.Idx) :
    (dot_S8x128x128_S8x128x128_S8x128x128_1_1_2_2_0_0.lhsIdx i k 0).val = (i 0).val := by
  unfold DotDims.lhsIdx
  rw [dif_pos (show (0 : Fin S8x128x128.rank) ∈ dot_S8x128x128_S8x128x128_S8x128x128_1_1_2_2_0_0.lhsBatch by decide)]
  rfl
theorem middle_lhs_1 (i : S8x128x128.Idx) (k : dot_S8x128x128_S8x128x128_S8x128x128_1_1_2_2_0_0.contr.Idx) :
    (dot_S8x128x128_S8x128x128_S8x128x128_1_1_2_2_0_0.lhsIdx i k 1).val = (k ⟨0, by decide⟩).val :=
  dot_S8x128x128_S8x128x128_S8x128x128_1_1_2_2_0_0.lhsIdx_val_of_single rfl i k
theorem middle_lhs_2 (i : S8x128x128.Idx) (k : dot_S8x128x128_S8x128x128_S8x128x128_1_1_2_2_0_0.contr.Idx) :
    (dot_S8x128x128_S8x128x128_S8x128x128_1_1_2_2_0_0.lhsIdx i k 2).val = (i 1).val := by
  unfold DotDims.lhsIdx
  rw [dif_neg (show ¬(2 : Fin S8x128x128.rank) ∈ dot_S8x128x128_S8x128x128_S8x128x128_1_1_2_2_0_0.lhsBatch by decide), dif_pos (show (2 : Fin S8x128x128.rank) ∈ dot_S8x128x128_S8x128x128_S8x128x128_1_1_2_2_0_0.lhsNonContracting by decide)]
  rfl
theorem middle_rhs_0 (i : S8x128x128.Idx) (k : dot_S8x128x128_S8x128x128_S8x128x128_1_1_2_2_0_0.contr.Idx) :
    (dot_S8x128x128_S8x128x128_S8x128x128_1_1_2_2_0_0.rhsIdx i k 0).val = (i 0).val := by
  unfold DotDims.rhsIdx
  rw [dif_pos (show (0 : Fin S8x128x128.rank) ∈ dot_S8x128x128_S8x128x128_S8x128x128_1_1_2_2_0_0.rhsBatch by decide)]
  rfl
theorem middle_rhs_1 (i : S8x128x128.Idx) (k : dot_S8x128x128_S8x128x128_S8x128x128_1_1_2_2_0_0.contr.Idx) :
    (dot_S8x128x128_S8x128x128_S8x128x128_1_1_2_2_0_0.rhsIdx i k 1).val = (k ⟨0, by decide⟩).val :=
  dot_S8x128x128_S8x128x128_S8x128x128_1_1_2_2_0_0.rhsIdx_val_of_single rfl i k
theorem middle_rhs_2 (i : S8x128x128.Idx) (k : dot_S8x128x128_S8x128x128_S8x128x128_1_1_2_2_0_0.contr.Idx) :
    (dot_S8x128x128_S8x128x128_S8x128x128_1_1_2_2_0_0.rhsIdx i k 2).val = (i 2).val := by
  unfold DotDims.rhsIdx
  rw [dif_neg (show ¬(2 : Fin S8x128x128.rank) ∈ dot_S8x128x128_S8x128x128_S8x128x128_1_1_2_2_0_0.rhsBatch by decide), dif_pos (show (2 : Fin S8x128x128.rank) ∈ dot_S8x128x128_S8x128x128_S8x128x128_1_1_2_2_0_0.rhsNonContracting by decide)]
  rfl
theorem plain_lhs_0 (i : S8x128x128.Idx) (k : dot_S8x128x128_S8x128x128_S8x128x128_2_1_1_2_0_0.contr.Idx) :
    (dot_S8x128x128_S8x128x128_S8x128x128_2_1_1_2_0_0.lhsIdx i k 0).val = (i 0).val := by
  unfold DotDims.lhsIdx
  rw [dif_pos (show (0 : Fin S8x128x128.rank) ∈ dot_S8x128x128_S8x128x128_S8x128x128_2_1_1_2_0_0.lhsBatch by decide)]
  rfl
theorem plain_lhs_1 (i : S8x128x128.Idx) (k : dot_S8x128x128_S8x128x128_S8x128x128_2_1_1_2_0_0.contr.Idx) :
    (dot_S8x128x128_S8x128x128_S8x128x128_2_1_1_2_0_0.lhsIdx i k 1).val = (i 1).val := by
  unfold DotDims.lhsIdx
  rw [dif_neg (show ¬(1 : Fin S8x128x128.rank) ∈ dot_S8x128x128_S8x128x128_S8x128x128_2_1_1_2_0_0.lhsBatch by decide), dif_pos (show (1 : Fin S8x128x128.rank) ∈ dot_S8x128x128_S8x128x128_S8x128x128_2_1_1_2_0_0.lhsNonContracting by decide)]
  rfl
theorem plain_lhs_2 (i : S8x128x128.Idx) (k : dot_S8x128x128_S8x128x128_S8x128x128_2_1_1_2_0_0.contr.Idx) :
    (dot_S8x128x128_S8x128x128_S8x128x128_2_1_1_2_0_0.lhsIdx i k 2).val = (k ⟨0, by decide⟩).val :=
  dot_S8x128x128_S8x128x128_S8x128x128_2_1_1_2_0_0.lhsIdx_val_of_single rfl i k
theorem plain_rhs_0 (i : S8x128x128.Idx) (k : dot_S8x128x128_S8x128x128_S8x128x128_2_1_1_2_0_0.contr.Idx) :
    (dot_S8x128x128_S8x128x128_S8x128x128_2_1_1_2_0_0.rhsIdx i k 0).val = (i 0).val := by
  unfold DotDims.rhsIdx
  rw [dif_pos (show (0 : Fin S8x128x128.rank) ∈ dot_S8x128x128_S8x128x128_S8x128x128_2_1_1_2_0_0.rhsBatch by decide)]
  rfl
theorem plain_rhs_1 (i : S8x128x128.Idx) (k : dot_S8x128x128_S8x128x128_S8x128x128_2_1_1_2_0_0.contr.Idx) :
    (dot_S8x128x128_S8x128x128_S8x128x128_2_1_1_2_0_0.rhsIdx i k 1).val = (k ⟨0, by decide⟩).val :=
  dot_S8x128x128_S8x128x128_S8x128x128_2_1_1_2_0_0.rhsIdx_val_of_single rfl i k
theorem plain_rhs_2 (i : S8x128x128.Idx) (k : dot_S8x128x128_S8x128x128_S8x128x128_2_1_1_2_0_0.contr.Idx) :
    (dot_S8x128x128_S8x128x128_S8x128x128_2_1_1_2_0_0.rhsIdx i k 2).val = (i 2).val := by
  unfold DotDims.rhsIdx
  rw [dif_neg (show ¬(2 : Fin S8x128x128.rank) ∈ dot_S8x128x128_S8x128x128_S8x128x128_2_1_1_2_0_0.rhsBatch by decide), dif_pos (show (2 : Fin S8x128x128.rank) ∈ dot_S8x128x128_S8x128x128_S8x128x128_2_1_1_2_0_0.rhsNonContracting by decide)]
  rfl

/-- The batched product that contracts the two operands' MIDDLE axes, `xᵀ y` per batch element: read at `(b, p, q)`
    it is `Σ_k x(b,k,p) · y(b,k,q)`. -/
theorem matmul_middle_apply {φ₁ φ₂ : FTy} (x : FVec Ideal S8x128x128 φ₁) (y : FVec Ideal S8x128x128 φ₂)
    (b : Fin 8) (p q : Fin 128) :
    matmul dot_S8x128x128_S8x128x128_S8x128x128_1_1_2_2_0_0 none x y (constant S8x128x128 .f32 0x00000000#32) (ix3 b p q)
      = ∑ k : Fin 128, x (ix3 b k p) * y (ix3 b k q) := by
  refine (Ideal.matmul_constant_zero_apply dot_S8x128x128_S8x128x128_S8x128x128_1_1_2_2_0_0 none x y (ix3 b p q)).trans ?_
  rw [← Equiv.sum_comp (ValueIdx.contrEquiv1 dot_S8x128x128_S8x128x128_S8x128x128_1_1_2_2_0_0 128 rfl rfl).symm]
  refine Finset.sum_congr rfl fun k _ => ?_
  have hk := ValueIdx.contrEquiv1_symm_val dot_S8x128x128_S8x128x128_S8x128x128_1_1_2_2_0_0 128 rfl rfl k
  have el : dot_S8x128x128_S8x128x128_S8x128x128_1_1_2_2_0_0.lhsIdx (ix3 b p q) ((ValueIdx.contrEquiv1 dot_S8x128x128_S8x128x128_S8x128x128_1_1_2_2_0_0 128 rfl rfl).symm k) = ix3 b k p := funext fun a => Fin.ext (by
    match a with
    | ⟨0, _⟩ => exact middle_lhs_0 _ _
    | ⟨1, _⟩ => exact (middle_lhs_1 _ _).trans hk
    | ⟨2, _⟩ => exact middle_lhs_2 _ _)
  have er : dot_S8x128x128_S8x128x128_S8x128x128_1_1_2_2_0_0.rhsIdx (ix3 b p q) ((ValueIdx.contrEquiv1 dot_S8x128x128_S8x128x128_S8x128x128_1_1_2_2_0_0 128 rfl rfl).symm k) = ix3 b k q := funext fun a => Fin.ext (by
    match a with
    | ⟨0, _⟩ => exact middle_rhs_0 _ _
    | ⟨1, _⟩ => exact (middle_rhs_1 _ _).trans hk
    | ⟨2, _⟩ => exact middle_rhs_2 _ _)
  rw [el, er]

/-- The plain batched product `x y` per batch element: read at `(b, p, q)` it is `Σ_k x(b,p,k) · y(b,k,q)`. -/
theorem matmul_plain_apply {φ₁ φ₂ : FTy} (x : FVec Ideal S8x128x128 φ₁) (y : FVec Ideal S8x128x128 φ₂)
    (b : Fin 8) (p q : Fin 128) :
    matmul dot_S8x128x128_S8x128x128_S8x128x128_2_1_1_2_0_0 none x y (constant S8x128x128 .f32 0x00000000#32) (ix3 b p q)
      = ∑ k : Fin 128, x (ix3 b p k) * y (ix3 b k q) := by
  refine (Ideal.matmul_constant_zero_apply dot_S8x128x128_S8x128x128_S8x128x128_2_1_1_2_0_0 none x y (ix3 b p q)).trans ?_
  rw [← Equiv.sum_comp (ValueIdx.contrEquiv1 dot_S8x128x128_S8x128x128_S8x128x128_2_1_1_2_0_0 128 rfl rfl).symm]
  refine Finset.sum_congr rfl fun k _ => ?_
  have hk := ValueIdx.contrEquiv1_symm_val dot_S8x128x128_S8x128x128_S8x128x128_2_1_1_2_0_0 128 rfl rfl k
  have el : dot_S8x128x128_S8x128x128_S8x128x128_2_1_1_2_0_0.lhsIdx (ix3 b p q) ((ValueIdx.contrEquiv1 dot_S8x128x128_S8x128x128_S8x128x128_2_1_1_2_0_0 128 rfl rfl).symm k) = ix3 b p k := funext fun a => Fin.ext (by
    match a with
    | ⟨0, _⟩ => exact plain_lhs_0 _ _
    | ⟨1, _⟩ => exact plain_lhs_1 _ _
    | ⟨2, _⟩ => exact (plain_lhs_2 _ _).trans hk)
  have er : dot_S8x128x128_S8x128x128_S8x128x128_2_1_1_2_0_0.rhsIdx (ix3 b p q) ((ValueIdx.contrEquiv1 dot_S8x128x128_S8x128x128_S8x128x128_2_1_1_2_0_0 128 rfl rfl).symm k) = ix3 b k q := funext fun a => Fin.ext (by
    match a with
    | ⟨0, _⟩ => exact plain_rhs_0 _ _
    | ⟨1, _⟩ => exact (plain_rhs_1 _ _).trans hk
    | ⟨2, _⟩ => exact plain_rhs_2 _ _)
  rw [el, er]

/-! ## The mask as the body multiplies by it -/

/-- A [1, 128, 128] array repeated over eight batch elements reads, at `(b, j, q)`, its one slab at `(j, q)`. -/
theorem repeat_slab_apply {α : Type} (v : S1x128x128.Idx → α) (h : S1x128x128.Broadcasts S8x128x128)
    (b : Fin 8) (j q : Fin 128) : broadcastTo S8x128x128 v h (ix3 b j q) = v (ix3 (0 : Fin 1) j q) := by
  refine broadcastTo_apply v h (ix3 b j q) (ix3 (0 : Fin 1) j q) fun ax => ?_
  match ax with
  | ⟨0, _⟩ => rfl
  | ⟨1, _⟩ => rfl
  | ⟨2, _⟩ => rfl

/-- The mask re-laid as [1, 128, 128] and repeated over the batch reads, at `(b, j, q)`, the mask at `(j, q)`. -/
theorem mask_apply (w : Vec Ideal S128x128 .f32) (b : Fin 8) (j q : Fin 128) :
    broadcastTo S8x128x128 (shapeCast S1x128x128 (shapeCast S128x128 w shapeCasts_S128x128_S128x128) shapeCasts_S128x128_S1x128x128)
      broadcasts_S1x128x128_S8x128x128 (ix3 b j q) = w (ix2 j q) := by
  rw [repeat_slab_apply, shapeCast_ab_1ab_apply, shapeCast_self]

/-! ## One trip's stored value -/

/-- ONE TRIP'S STORED VALUE at `(b, p, q)` is the masked triple product of batch element `b`'s matrices. -/
theorem payload_apply (w : Vec Ideal S128x128 .f32) (a c : Vec Ideal S8x128x128 .f32) (b : Fin 8) (p q : Fin 128) :
    k0_pay1 (F := Ideal) w a c (ix3 b p q)
      = masked (fun j l => w (ix2 j l)) (fun r s => a (ix3 b r s)) (fun r s => c (ix3 b r s)) p q := by
  unfold k0_pay1
  refine (matmul_plain_apply _ _ b p q).trans ?_
  unfold masked
  refine Finset.sum_congr rfl fun j _ => ?_
  refine congrArg (a (ix3 b p j) * ·) ?_
  refine congrArg₂ (· * ·) (mask_apply w b j q) ?_
  refine (matmul_plain_apply _ _ b j q).trans ?_
  unfold phi
  refine Finset.sum_congr rfl fun k _ => ?_
  exact congrArg (· * a (ix3 b k q)) (matmul_middle_apply _ _ b j k)

end Cert.GaussLayer.Body

end
-- ==== Proof.Block.lean ====
/-
  What the kernel body leaves in the output's staging block at one grid point.

  A grid point holds 64 batch elements. The body walks them in eight trips of eight: trip `k` loads batch elements
  `8k … 8k+7` of the two input blocks and stores, at the same eight batch elements of the output block, their masked
  triple products (Payload.lean). A batch element's result depends on that batch element's matrices only, so every
  trip's stored slab is the restriction of ONE function of the whole block,

      blockFn a c w (b, p, q) = masked w (a(b,·,·)) (c(b,·,·)) p q,

  and the eight slabs tile the block: after the body the block holds `blockFn` of the input blocks, whatever it held
  before.
-/
import proofs.«178304_j50002009260129_2_alg».proof.Proof.Gen.KernelIdeal.Frame
import proofs.«178304_j50002009260129_2_alg».proof.Proof.Payload

set_option maxRecDepth 16384

noncomputable section

namespace Cert.GaussLayer.Block

open Idealize.ShloMosaic Idealize.ShloMosaic.TcCoe Idealize.ShloMosaic.ValueIdx Idealize.SL.Sem
open Cert.KernelIdeal Cert.KernelIdeal.Gen Cert.GaussLayer Cert.GaussLayer.Body

/-- The masked triple product of batch element `b` of a block of 64. -/
def blockAt (xa xc : Vec Ideal S64x128x128 .f32) (w : Vec Ideal S128x128 .f32) (b : Fin 64) (p q : Fin 128) : EReal :=
  masked (fun j l => w (ix2 j l)) (fun r s => xa (ix3 b r s)) (fun r s => xc (ix3 b r s)) p q

/-- The same as a function of the block's index. -/
def blockFn (xa xc : Vec Ideal S64x128x128 .f32) (w : Vec Ideal S128x128 .f32) : Vec Ideal S64x128x128 .f32 :=
  fun y => blockAt xa xc w (y 0) (y 1) (y 2)

/-- Trip `k`'s slab: eight batch elements starting at the trip's offset, all rows and columns. -/
abbrev slab (k : Fin k0_t1_loop.trips) : Rect S64x128x128 :=
  Rect.unit (s := S64x128x128) (k0_off1 k) S8x128x128.size (k0_off1_inb k)

/-- A block read through trip `k`'s slab at `(b, r, s)` is the block at batch element (offset + b), row r, column s:
    the slab starts at row 0 and column 0. -/
theorem ld_slab (X : Vec Ideal S64x128x128 .f32) (k : Fin k0_t1_loop.trips) (b : Fin 8) (r s : Fin 128) :
    View.ld X (slab k) (ix3 b r s) = X (ix3 ((slab k).emb (ix3 b r s) 0) r s) := by
  have ho := k0_off1_eq k
  refine congrArg X (funext fun ax => Fin.ext ?_)
  match ax with
  | ⟨0, _⟩ => rfl
  | ⟨1, _⟩ =>
    show (k0_off1 k) 1 + 1 * r.val = r.val
    rw [ho]; show 0 + 1 * r.val = r.val; omega
  | ⟨2, _⟩ =>
    show (k0_off1 k) 2 + 1 * s.val = s.val
    rw [ho]; show 0 + 1 * s.val = s.val; omega

/-- The batch coordinate of a slab entry does not depend on its row and column. -/
theorem slab_batch (k : Fin k0_t1_loop.trips) (b : Fin 8) (p q r s : Fin 128) :
    (slab k).emb (ix3 b r s) 0 = (slab k).emb (ix3 b p q) 0 := Fin.ext rfl

theorem slab_row (k : Fin k0_t1_loop.trips) (b : Fin 8) (p q : Fin 128) : (slab k).emb (ix3 b p q) 1 = p := by
  have ho := k0_off1_eq k
  refine Fin.ext ?_
  show (k0_off1 k) 1 + 1 * p.val = p.val
  rw [ho]; show 0 + 1 * p.val = p.val; omega

theorem slab_col (k : Fin k0_t1_loop.trips) (b : Fin 8) (p q : Fin 128) : (slab k).emb (ix3 b p q) 2 = q := by
  have ho := k0_off1_eq k
  refine Fin.ext ?_
  show (k0_off1 k) 2 + 1 * q.val = q.val
  rw [ho]; show 0 + 1 * q.val = q.val; omega

/-- TRIP `k`'s stored value, entry by entry, is `blockFn` of the whole input blocks at the entry's place in the block. -/
theorem trip_entry (xa xc : Vec Ideal S64x128x128 .f32) (w : Vec Ideal S128x128 .f32) (k : Fin k0_t1_loop.trips)
    (b : Fin 8) (p q : Fin 128) :
    k0_pay1 (F := Ideal) w (View.ld xa (slab k)) (View.ld xc (slab k)) (ix3 b p q)
      = blockFn xa xc w ((slab k).emb (ix3 b p q)) := by
  rw [payload_apply]
  unfold blockFn blockAt
  rw [slab_row, slab_col]
  have ea : (fun r s => View.ld xa (slab k) (ix3 b r s)) = fun r s => xa (ix3 ((slab k).emb (ix3 b p q) 0) r s) :=
    funext fun r => funext fun s => (ld_slab xa k b r s).trans (by rw [slab_batch k b p q r s])
  have ec : (fun r s => View.ld xc (slab k) (ix3 b r s)) = fun r s => xc (ix3 ((slab k).emb (ix3 b p q) 0) r s) :=
    funext fun r => funext fun s => (ld_slab xc k b r s).trans (by rw [slab_batch k b p q r s])
  rw [ea, ec]

section Run

variable (c : Dev nD) (i : grid0.Coords) (arg1 : Memref sig .tc .vmem S64x128x128 .f32) (harg1 : arg1.IsWhole) (arg2 : Memref sig .tc .vmem S64x128x128 .f32) (harg2 : arg2.IsWhole) (arg3 : Memref sig .tc .vmem S128x128 .f32) (harg3 : arg3.IsWhole) (arg4 : Memref sig .tc .vmem S64x128x128 .f32) (harg4 : arg4.IsWhole)
variable (xa xc : Vec Ideal S64x128x128 .f32) (w : Vec Ideal S128x128 .f32)

/-- Trip `k` makes ONE store: through its slab, of the trip's value of the two blocks read through the same slab. -/
theorem trip_list (k : Fin k0_t1_loop.trips) :
    tripL_k0_t1 (F := Ideal) Variants.none c none i arg1 harg1 arg2 harg2 arg3 harg3 arg4 harg4 w (harg1.unread xa) (harg2.unread xc) k
      = [⟨slab k, k0_pay1 (F := Ideal) w (View.ld xa (slab k)) (View.ld xc (slab k))⟩] := by
  unfold tripL_k0_t1
  unfold trip_k0_t1
  dsimp only
  rw [View.readAt_eq_ld, View.readAt_eq_ld, harg1.read_unread, harg2.read_unread]

/-- So every piece of trip `k` is a restriction of `blockFn`. -/
theorem trip_pieces (k : Fin k0_t1_loop.trips) :
    ∀ pc ∈ tripL_k0_t1 (F := Ideal) Variants.none c none i arg1 harg1 arg2 harg2 arg3 harg3 arg4 harg4 w (harg1.unread xa) (harg2.unread xc) k,
      ∀ x : pc.1.shape.Idx, pc.2 x = blockFn xa xc w (pc.1.emb x) := by
  intro pc hpc
  rw [trip_list, List.mem_singleton] at hpc
  subst hpc
  intro x
  obtain ⟨b, p, q, rfl⟩ : ∃ (b : Fin 8) (p q : Fin 128), x = ix3 b p q := ⟨x 0, x 1, x 2, eq_ix3 x⟩
  exact trip_entry xa xc w k b p q

/-- … and so is every piece of the trips before `n`, by induction on `n`. -/
theorem trips_pieces : ∀ n : ℕ, n ≤ k0_t1_loop.trips →
    ∀ pc ∈ pb_k0_t1 (F := Ideal) Variants.none c none i arg1 harg1 arg2 harg2 arg3 harg3 arg4 harg4 w (harg1.unread xa) (harg2.unread xc) n,
      ∀ x : pc.1.shape.Idx, pc.2 x = blockFn xa xc w (pc.1.emb x)
  | 0, _ => fun pc hpc => absurd hpc List.not_mem_nil
  | n + 1, hn => fun pc hpc => by
    have e := pb_k0_t1_succ (F := Ideal) Variants.none c none i arg1 harg1 arg2 harg2 arg3 harg3 arg4 harg4 w (harg1.unread xa) (harg2.unread xc) ⟨n, hn⟩
    rw [show (⟨n, hn⟩ : Fin k0_t1_loop.trips).val + 1 = n + 1 from rfl] at e
    rw [e] at hpc
    rcases List.mem_append.mp hpc with h | h
    · exact trip_pieces c i arg1 harg1 arg2 harg2 arg3 harg3 arg4 harg4 xa xc w ⟨n, hn⟩ pc h
    · exact trips_pieces n (Nat.le_of_lt hn) pc h

/-- The whole body's stores are the eight trips', in order, the mask read whole once before the first trip. -/
theorem run_list :
    (kernelRun0_A (F := Ideal) c i arg1 harg1 arg2 harg2 arg3 harg3 arg4 harg4 xa xc w).1
      = pb_k0_t1 (F := Ideal) Variants.none c none i arg1 harg1 arg2 harg2 arg3 harg3 arg4 harg4 w (harg1.unread xa) (harg2.unread xc) k0_t1_loop.trips := by
  unfold kernelRun0_A
  dsimp only
  rw [View.readAt_eq_ld, harg3.read_unread,
    View.ld_unit_zero (S := S128x128) (funext fun ax => by match ax with | ⟨0, _⟩ => rfl | ⟨1, _⟩ => rfl)]

/-- WHAT THE BODY LEAVES in the output's block: `blockFn` of the two input blocks and the mask. -/
theorem out_eq : out0_A_3 (F := Ideal) c i arg1 harg1 arg2 harg2 arg3 harg3 arg4 harg4 xa xc w = blockFn xa xc w := by
  funext y
  unfold out0_A_3
  refine View.read_writes_apply_of_pieces (v := VO0_3) (f := VO0_3.junk) (blockFn xa xc w) _ ?_ y (cover0_A_3 c i arg1 harg1 arg2 harg2 arg3 harg3 arg4 harg4 xa xc w y)
  rw [run_list]
  exact trips_pieces c i arg1 harg1 arg2 harg2 arg3 harg3 arg4 harg4 xa xc w k0_t1_loop.trips le_rfl

end Run

end Cert.GaussLayer.Block

end
-- ==== Proof.Mask.lean ====
/-
  The two masks, as the host computes them, and that they are opposite real numbers entry by entry.

  Both programs build on the host, from the row and column numbers of a 128 × 128 grid,
    `diag`  = 1 where row = column, else 0          (the comparison's bit read as a number),
    `lower` = 1 where row ≥ column, else 0          (a choice between the constants 1 and 0),
  and the constant ½. One program multiplies by `½·diag − lower`, the other by `lower − ½·diag`. Every entry of
  `diag`, `lower` and ½ is a real number, so the first mask is the second negated, entry by entry.
-/
import proofs.«178304_j50002009260129_2_alg».proof.Proof.MaskedProduct
import Idealize.ShloMosaic.Lib.ValueIdx

noncomputable section

namespace Cert.GaussLayer.Mask

open Idealize.ShloMosaic Cert.GaussLayer

/-- The 128 × 128 grid and the shape of a scalar. -/
abbrev Sq : Shape := ⟨2, ![128, 128]⟩
abbrev S0 : Shape := ⟨0, ![]⟩

theorem spread : S0.BroadcastsInDim Sq (![] : Fin 0 → Fin Sq.rank) := by decide

/-- The row number (plus the constant 0 the host adds to it), as a 32-bit word. -/
def rows : IVec Sq 32 := addi (iotaInDim Sq 32 0) (broadcastInDim Sq ![] spread (constantI S0 32 0#32))

/-- 1 on the diagonal, 0 off it. -/
def diag : FVec Ideal Sq .f32 := uitofp .f32 (cmpi .eq rows (iotaInDim Sq 32 1))

/-- 1 on and below the diagonal, 0 above it. -/
def lower : FVec Ideal Sq .f32 :=
  select (cmpi .sge rows (iotaInDim Sq 32 1)) (broadcastInDim Sq ![] spread (constant S0 .f32 0x3F800000#32))
    (broadcastInDim Sq ![] spread (constant S0 .f32 0x00000000#32))

/-- The constant ½ at every entry. -/
def half : FVec Ideal Sq .f32 := broadcastInDim Sq ![] spread (constant S0 .f32 0x3F000000#32)

/-- The mask one program multiplies by: `½·diag − lower`. -/
def maskNeg : FVec Ideal Sq .f32 := subf (mulf half diag) lower

/-- The mask the other program multiplies by: `lower − ½·diag`. -/
def maskPos : FVec Ideal Sq .f32 := subf lower (mulf half diag)

theorem one_real : IsReal (Ideal.ofBits .f32 0x3F800000#32) := by
  refine ⟨1, ?_⟩
  simp [Ideal.ofBits, Ideal.ieee, -EReal.coe_mul]; norm_num

theorem zero_real : IsReal (Ideal.ofBits .f32 0x00000000#32) := by
  refine ⟨0, ?_⟩
  simp [Ideal.ofBits, Ideal.ieee]

theorem half_real' : IsReal (Ideal.ofBits .f32 0x3F000000#32) := by
  refine ⟨1 / 2, ?_⟩
  simp [Ideal.ofBits, Ideal.ieee, -EReal.coe_mul]; norm_num

theorem diag_real (i : Sq.Idx) : IsReal (diag i) := ⟨_, rfl⟩

theorem lower_real (i : Sq.Idx) : IsReal (lower i) := by
  show IsReal (Scalar.select _ (Ideal.ofBits .f32 0x3F800000#32) (Ideal.ofBits .f32 0x00000000#32))
  unfold Scalar.select
  split
  · exact one_real
  · exact zero_real

theorem half_real (i : Sq.Idx) : IsReal (half i) := half_real'

theorem maskPos_real (i : Sq.Idx) : IsReal (maskPos i) :=
  (lower_real i).sub ((half_real i).mul (diag_real i))

/-- ENTRY BY ENTRY the first mask is the second negated. -/
theorem maskNeg_eq (i : Sq.Idx) : maskNeg i = -maskPos i :=
  sub_eq_neg_sub (half_real i) (diag_real i) (lower_real i)

end Cert.GaussLayer.Mask

end
-- ==== Proof.Layer.lean ====
/-
  The layer on whole arrays, and the law that joins the two programs.

  For Cholesky factors `A` and covariances `C` of shape [4096, 128, 128] and a 128 × 128 mask `W`,

      layer A C W (n, p, q) = masked W (A(n,·,·)) (C(n,·,·)) p q
                            = Σ_j A(n,p,j) · ( W(j,q) · Σ_k ( Σ_j' A(n,j',j) · C(n,j',k) ) · A(n,k,q) ).

  One program ends with `layer A C (½·diag − lower)`, the other with `−layer A C (lower − ½·diag)`. With every entry of
  `A` and `C` a real number the two are equal (MaskedProduct.lean `masked_neg`, Mask.lean `maskNeg_eq`).
-/
import proofs.«178304_j50002009260129_2_alg».proof.Proof.MaskedProduct
import proofs.«178304_j50002009260129_2_alg».proof.Proof.Mask
import Idealize.ShloMosaic.Lib.ValueIdx

noncomputable section

namespace Cert.GaussLayer

open Idealize.ShloMosaic Idealize.ShloMosaic.ValueIdx

/-- The shape of the two matrix inputs and of the output: 4096 batch elements of 128 × 128 matrices. -/
abbrev Arr : Shape := ⟨3, ![4096, 128, 128]⟩

/-- The masked triple product of batch element `n` of the whole arrays. -/
def layerAt (A C : Vec Ideal Arr .f32) (W : Vec Ideal Mask.Sq .f32) (n : Fin 4096) (p q : Fin 128) : EReal :=
  masked (fun j l => W (ix2 j l)) (fun r s => A (ix3 n r s)) (fun r s => C (ix3 n r s)) p q

/-- THE LAYER: the output array as one function of the two input arrays and the mask. -/
def layer (A C : Vec Ideal Arr .f32) (W : Vec Ideal Mask.Sq .f32) : Vec Ideal Arr .f32 :=
  fun i => layerAt A C W (i 0) (i 1) (i 2)

/-- With real entries, the layer under the first mask is the layer under the second, negated. -/
theorem layer_neg (A C : Vec Ideal Arr .f32) (hA : ∀ i, IsReal (A i)) (hC : ∀ i, IsReal (C i)) (i : Arr.Idx) :
    layer A C Mask.maskNeg i = -layer A C Mask.maskPos i := by
  unfold layer layerAt
  rw [show (fun j l => Mask.maskNeg (ix2 j l)) = fun (j l : Fin 128) => -Mask.maskPos (ix2 j l) from
    funext fun j => funext fun l => Mask.maskNeg_eq _]
  exact masked_neg (fun j l => Mask.maskPos_real _) (fun r s => hA _) (fun r s => hC _) _ _

end Cert.GaussLayer

end
-- ==== Proof.Whole.lean ====
/-
  From blocks to the whole output array.

  `layer A C W (n, p, q) = masked W (A(n,·,·)) (C(n,·,·)) p q` is the layer on whole arrays (Layer.lean).

  Grid point `t` stages batch elements `64t … 64t+63` of both inputs (all rows and columns) and the whole mask, and
  writes back the same batch elements of the output. What the body leaves in the staged output block is `blockFn` of
  the staged input blocks (Block.lean); a batch element's result reads that batch element only, so this is block `t`
  of `layer` of the whole arrays. The 64 blocks cover the 4096 batch elements (element `n` is in block `n / 64`), so
  after the run the output array is `layer` of the arrays the region found.
-/
import proofs.«178304_j50002009260129_2_alg».proof.Proof.Gen.KernelIdeal.Value
import proofs.«178304_j50002009260129_2_alg».proof.Proof.Block
import proofs.«178304_j50002009260129_2_alg».proof.Proof.Layer

set_option maxRecDepth 16384

noncomputable section

namespace Cert.GaussLayer.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.GaussLayer Cert.GaussLayer.Block

/-- A block entry `j` sitting at array index `E`: if the staged blocks hold the arrays' batch element of `E` at batch
    element `j 0`, the staged mask is the mask, and `E` has `j`'s row and column, then `blockFn` at `j` is `layer`
    at `E`. -/
theorem block_entry (A C : Vec Ideal S4096x128x128 .f32) (W : Vec Ideal S128x128 .f32)
    (xa xc : Vec Ideal S64x128x128 .f32) (w : Vec Ideal S128x128 .f32) (j : S64x128x128.Idx) (E : S4096x128x128.Idx)
    (ha : ∀ r s : Fin 128, xa (ix3 (j 0) r s) = A (ix3 (E 0) r s))
    (hc : ∀ r s : Fin 128, xc (ix3 (j 0) r s) = C (ix3 (E 0) r s))
    (hw : ∀ r s : Fin 128, w (ix2 r s) = W (ix2 r s))
    (h1 : (E 1).val = (j 1).val) (h2 : (E 2).val = (j 2).val) :
    blockFn xa xc w j = layer A C W E := by
  unfold blockFn blockAt layer layerAt
  have e1 : (E 1 : Fin 128) = j 1 := Fin.ext h1
  have e2 : (E 2 : Fin 128) = j 2 := Fin.ext h2
  rw [e1, e2, show (fun r s => xa (ix3 (j 0) r s)) = fun r s => A (ix3 (E 0) r s) from funext fun r => funext fun s => ha r s,
    show (fun r s => xc (ix3 (j 0) r s)) = fun r s => C (ix3 (E 0) r s) from funext fun r => funext fun s => hc r s,
    show (fun r s => w (ix2 r s)) = fun r s => W (ix2 r s) from funext fun r => funext fun s => hw r s]

/-- The printed index maps over the 64 grid points: both input windows move with the output window along the batch
    axis and sit at row 0 and column 0, the mask's window does not move, and point `t`'s output block is block `t`. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

variable (m : (ℓ : Loc nD τ sig) → Buf (Elt Ideal) ℓ) (ρ : Dev nD → PrngReg)

/-- WHAT POINT `t` WRITES BACK is block `t` of `layer` of the arrays as the region finds them. -/
theorem flushed_eq (c : Dev nD) (t : Fin cfg0.N) :
    (dats m 0 c).flushed 3 t
      = ((cfg0.win 3).blk t).view.read (Elt Ideal) (layer (V m c main_arg2) (V m c main_arg1) (V m c main_v10)) := by
  rw [flushed3_A, Block.out_eq]
  obtain ⟨a0, a1, a2, c0, c1, c2, w0, w1, -, o1, o2⟩ := idx_facts t
  funext j
  show blockFn (iblk m c 0 t) (iblk m c 1 t) (iblk m c 2 t) j
    = layer (V m c main_arg2) (V m c main_arg1) (V m c main_v10) (((cfg0.win 3).blk t).view.emb j)
  refine block_entry (V m c main_arg2) (V m c main_arg1) (V m c main_v10) (iblk m c 0 t) (iblk m c 1 t) (iblk m c 2 t) j
    (((cfg0.win 3).blk t).view.emb j) (fun r s => ?_) (fun r s => ?_) (fun r s => ?_) ?_ ?_
  · show V m c main_arg2 (((cfg0.win 0).blk t).view.emb (ix3 (j 0) r s)) = V m c main_arg2 (ix3 ((((cfg0.win 3).blk t).view.emb j) 0) r s)
    refine congrArg _ (funext fun ax => Fin.ext ?_)
    match ax with
    | ⟨0, _⟩ => show win0_0.index t (0 : Fin 3) * 64 + 1 * (j 0).val = win0_3.index t (0 : Fin 3) * 64 + 1 * (j 0).val; omega
    | ⟨1, _⟩ => show win0_0.index t (1 : Fin 3) * 128 + 1 * r.val = r.val; omega
    | ⟨2, _⟩ => show win0_0.index t (2 : Fin 3) * 128 + 1 * s.val = s.val; omega
  · show V m c main_arg1 (((cfg0.win 1).blk t).view.emb (ix3 (j 0) r s)) = V m c main_arg1 (ix3 ((((cfg0.win 3).blk t).view.emb j) 0) r s)
    refine congrArg _ (funext fun ax => Fin.ext ?_)
    match ax with
    | ⟨0, _⟩ => show win0_1.index t (0 : Fin 3) * 64 + 1 * (j 0).val = win0_3.index t (0 : Fin 3) * 64 + 1 * (j 0).val; omega
    | ⟨1, _⟩ => show win0_1.index t (1 : Fin 3) * 128 + 1 * r.val = r.val; omega
    | ⟨2, _⟩ => show win0_1.index t (2 : Fin 3) * 128 + 1 * s.val = s.val; omega
  · show V m c main_v10 (((cfg0.win 2).blk t).view.emb (ix2 r s)) = V m c main_v10 (ix2 r s)
    refine congrArg _ (funext fun ax => Fin.ext ?_)
    match ax with
    | ⟨0, _⟩ => show win0_2.index t (0 : Fin 2) * 128 + 1 * r.val = r.val; omega
    | ⟨1, _⟩ => show win0_2.index t (1 : Fin 2) * 128 + 1 * s.val = s.val; omega
  · show win0_3.index t (1 : Fin 3) * 128 + 1 * (j 1).val = (j 1).val; omega
  · show win0_3.index t (2 : Fin 3) * 128 + 1 * (j 2).val = (j 2).val; omega

/-- An index of the output array is in point `t`'s block iff each coordinate is in the block's range on its axis. -/
theorem mem_blk (t : Fin cfg0.N) (i : S4096x128x128.Idx) :
    i ∈ ((cfg0.win 3).blk t).view.set ↔ ∀ a : Fin 3, win0_3.index t a * S64x128x128.size a ≤ (i a).val ∧ (i a).val < win0_3.index t a * S64x128x128.size a + S64x128x128.size a := by
  show i ∈ ((View.whole main_v11).slice (win0_3.rect t)).set ↔ _
  rw [View.set_slice_whole, Rect.mem_set_unit]
  exact Iff.rfl

/-- Every batch element is in some point's block: element `n` in block `n / 64`. -/
theorem cover (i : S4096x128x128.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 128 := (i 1).isLt
  have hi2 : (i 2).val < 128 := (i 2).isLt
  let t : Fin cfg0.N := ⟨(i 0).val / 64, by omega⟩
  obtain ⟨-, -, -, -, -, -, -, -, o0, o1, o2⟩ := idx_facts t
  have ht : t.val = (i 0).val / 64 := rfl
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- THE OUTPUT ARRAY after the run: `layer` of the arrays as the region finds them. -/
theorem final (c : Dev nD) :
    (dats m 0 c).arrAt 3 cfg0.N = layer (V m c main_arg2) (V m c main_arg1) (V m c main_v10) :=
  (dats m 0 c).arrAt_eq_of_cover 3 _ (fun t _ => flushed_eq m c t) cover

end Cert.GaussLayer.Whole

end
-- ==== Proof.KernelRun.lean ====
/-
  The kernel program's run, read: the output array ends as the layer of the two matrix arguments under the mask
  `½·diag − lower`.

  The host operations before the region write that mask (they read no argument); the region finds the two matrix
  arguments as launched; and after the region the output array is `layer` of what the region found (Whole.lean).
-/
import proofs.«178304_j50002009260129_2_alg».proof.Proof.Whole
import Idealize.ShloMosaic.Lib.StableHlo.Run

set_option maxRecDepth 16384

noncomputable section

namespace Cert.GaussLayer.KernelRun

open Idealize.ShloMosaic Idealize.ShloMosaic.TcCoe Idealize.SL.Sem Idealize.ShloMosaic.StableHlo
open Cert.KernelIdeal Cert.KernelIdeal.Gen Cert.KernelIdeal.Value Cert.GaussLayer

variable (m : (ℓ : Loc nD τ sig) → Buf (Elt Ideal) ℓ) (ρ : Dev nD → PrngReg)

/-- The mask the region finds is `½·diag − lower`: what the host operations before the region wrote. -/
theorem entry_mask (c : Dev nD) : (V m c main_v10 : S128x128.Idx → EReal) = Mask.maskNeg := by
  dsimp only [V]
  simp only [hostOps0, hostOps0_1, hostOps0_2, List.flatten_cons, List.flatten_nil, List.append_nil, List.cons_append,
    List.nil_append]
  after_results
  rfl

/-- THE KERNEL PROGRAM'S RUN: the output array is the layer of the launched arguments under `½·diag − lower`, and the
    three arguments are unchanged. -/
theorem run : θ_run defs (onTc (τ := τ) (main (F := Ideal))) ⟨m, fun _ => 0, ρ⟩ fun r => ∀ c : Dev nD,
      r.2.mem ((c : Thread nD τ).loc main_v11)
        = layer (m ((c : Thread nD τ).loc main_arg2)) (m ((c : Thread nD τ).loc main_arg1)) Mask.maskNeg
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((Whole.final m c).trans (by
      rw [V_main_arg2, V_main_arg1, entry_mask])), (h c).2⟩) (run_blocks m ρ)

end Cert.GaussLayer.KernelRun

end
-- ==== Proof.Reference.lean ====
/-
  The reference, read entry by entry: the layer under the mask `lower − ½·diag`, negated.

  The reference forms `Cᵀ A` (entry `(k, j)`: `Σ_j' C(n,j',k) · A(n,j',j)`), contracts its first axis with `A` — which is
  `((Aᵀ C) A)(j, q)` with the two factors of each innermost term exchanged —, multiplies entrywise by the mask, multiplies
  by `A` on the left and negates.
-/
import proofs.«178304_j50002009260129_2_alg».proof.Proof.Gen.ReferenceIdeal.Read
import proofs.«178304_j50002009260129_2_alg».proof.Proof.Layer

noncomputable section

namespace Cert.GaussLayer.Reference

open Idealize.ShloMosaic Idealize.ShloMosaic.ValueIdx Cert.ReferenceIdeal Cert.ReferenceIdeal.Read Cert.GaussLayer

/-- The reference's mask stage is `lower − ½·diag`. -/
theorem mask_stage : (val_main_v10 (F := Ideal) : S128x128.Idx → EReal) = Mask.maskPos := rfl

/-- THE REFERENCE'S RESULT at `(n, p, q)`, as a function of its second and third arguments `C`, `A`:
    `−layer A C (lower − ½·diag)` there. -/
theorem value_apply (x1 x2 : (⟨S4096x128x128, .f32⟩ : BufTy).Contents (Elt Ideal)) (n : Fin 4096) (p q : Fin 128) :
    val_main_v17 (F := Ideal) x1 x2 (ix3 n p q) = -layer x2 x1 Mask.maskPos (ix3 n p q) := by
  rw [val_main_v17_apply, val_main_v16_apply]
  show -(∑ k : Fin 128, x2 (lidx_main_v16 (ix3 n p q) k) * val_main_v15 (F := Ideal) x1 x2 (ridx_main_v16 (ix3 n p q) k)) = _
  refine congrArg Neg.neg ?_
  show _ = layerAt x2 x1 Mask.maskPos n p q
  unfold layerAt masked
  refine Finset.sum_congr rfl fun j _ => ?_
  have el : lidx_main_v16 (ix3 n p q) j = ix3 n p j := funext fun ax => Fin.ext (by match ax with | ⟨0, _⟩ => rfl | ⟨1, _⟩ => rfl | ⟨2, _⟩ => rfl)
  have er : ridx_main_v16 (ix3 n p q) j = ix3 n j q := funext fun ax => Fin.ext (by match ax with | ⟨0, _⟩ => rfl | ⟨1, _⟩ => rfl | ⟨2, _⟩ => rfl)
  rw [el, er, val_main_v15_apply, val_main_v14_apply, val_main_v13_apply]
  refine congrArg (x2 (ix3 n p j) * ·) ?_
  refine congrArg₂ (· * ·) ?_ ?_
  · have ei : idx_main_v13 (idx_main_v14 (ix3 n j q)) = ix2 j q :=
      funext fun ax => Fin.ext (by match ax with | ⟨0, _⟩ => rfl | ⟨1, _⟩ => rfl)
    rw [ei, mask_stage]
  · rw [val_main_v12_apply]
    unfold phi
    refine Finset.sum_congr rfl fun k _ => ?_
    have el2 : lidx_main_v12 (ix3 n j q) k = ix3 n k j := funext fun ax => Fin.ext (by match ax with | ⟨0, _⟩ => rfl | ⟨1, _⟩ => rfl | ⟨2, _⟩ => rfl)
    have er2 : ridx_main_v12 (ix3 n j q) k = ix3 n k q := funext fun ax => Fin.ext (by match ax with | ⟨0, _⟩ => rfl | ⟨1, _⟩ => rfl | ⟨2, _⟩ => rfl)
    rw [el2, er2, val_main_v11_apply]
    refine congrArg (· * x2 (ix3 n k q)) ?_
    refine (Finset.sum_congr rfl fun j' _ => ?_).trans
      (gram_comm (fun r s => x2 (ix3 n r s)) (fun r s => x1 (ix3 n r s)) j k)
    have el3 : lidx_main_v11 (ix3 n k j) j' = ix3 n j' k := funext fun ax => Fin.ext (by match ax with | ⟨0, _⟩ => rfl | ⟨1, _⟩ => rfl | ⟨2, _⟩ => rfl)
    have er3 : ridx_main_v11 (ix3 n k j) j' = ix3 n j' j := funext fun ax => Fin.ext (by match ax with | ⟨0, _⟩ => rfl | ⟨1, _⟩ => rfl | ⟨2, _⟩ => rfl)
    rw [el3, er3]

/-- The same at any index. -/
theorem value_eq (x1 x2 : (⟨S4096x128x128, .f32⟩ : BufTy).Contents (Elt Ideal)) (i : S4096x128x128.Idx) :
    val_main_v17 (F := Ideal) x1 x2 i = -layer x2 x1 Mask.maskPos i := by
  obtain ⟨n, p, q, rfl⟩ : ∃ (n : Fin 4096) (p q : Fin 128), i = ix3 n p q := ⟨i 0, i 1, i 2, eq_ix3 i⟩
  exact value_apply x1 x2 n p q

end Cert.GaussLayer.Reference

end
-- ==== Proof.Finite.lean ====
/-
  From the precondition to "every entry of the two matrix inputs is a real number".

  The precondition is the conjunction, over the three inputs, of `all(|x| < +∞)`. An `and`-reduction that is true was
  true at every entry; `|x| = max x (−x)` is `+∞` at both infinities; so an entry with `|x| < +∞` is a real number.
-/
import proofs.«178304_j50002009260129_2_alg».proof.Pre_finite_inputs
import proofs.«178304_j50002009260129_2_alg».proof.Proof.Gen.Pre_finite_inputs
import proofs.«178304_j50002009260129_2_alg».proof.Proof.MaskedProduct
import Idealize.ShloMosaic.Lib.ReduceAll
import Idealize.ShloMosaic.Lib.ValueIdx
import Idealize.ShloMosaic.Lib.Affine

noncomputable section

namespace Cert.GaussLayer.Finite

open Idealize.ShloMosaic Cert.GaussLayer Cert.Pre_finite_inputs

instance : Subsingleton S_.Idx := ⟨fun _ _ => funext fun d => d.elim0⟩

/-- The pattern of `+∞` denotes `⊤`. -/
theorem ofBits_inf : Ideal.ofBits .f32 0x7F800000#32 = ⊤ := by
  simp [Ideal.ofBits, Ideal.ieee]

/-- An extended real whose absolute value `max x (−x)` is below `+∞` is a real number. -/
theorem real_of_abs_lt (x : EReal) (h : Ideal.cmp .olt (max x (-x)) (Ideal.ofBits .f32 0x7F800000#32) = 1#1) :
    IsReal x := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- THE PRECONDITION gives: every entry of the second and of the third input is a real number. -/
theorem real_of_pre (a0 : FVec Ideal S4096x128 .f32) (a1 a2 : FVec Ideal S4096x128x128 .f32)
    (h : fn (F := Ideal) a0 a1 a2 = fun _ => 1#1) : (∀ i, IsReal (a1 i)) ∧ (∀ i, IsReal (a2 i)) := by
  have h0 := congrFun h ValueIdx.ix0
  dsimp only [fn] at h0
  obtain ⟨h8, h12⟩ := IntOp.andi_eq_one.mp h0
  obtain ⟨-, h7⟩ := IntOp.andi_eq_one.mp h8
  exact ⟨fun i => real_of_abs_lt _ (Host.reduce_andi_all _ _ _ _ _ h7 i),
    fun i => real_of_abs_lt _ (Host.reduce_andi_all _ _ _ _ _ h12 i)⟩

end Cert.GaussLayer.Finite

end
-- ==== Proof.lean ====
/-
  The layer: for a batch of 4096 Cholesky factors `A` and covariances `C` (128 × 128 each),

      out(n) = A(n) · ( W ∘ ( A(n)ᵀ C(n) A(n) ) ),      `∘` the entrywise product,

  and a vector input handed through unchanged. The kernel program builds the mask `W = ½·δ − L` (`δ` the identity,
  `L` the lower triangle of ones) on the host and computes the three products block by block (64 batch elements per
  grid point, eight at a time inside the body); the reference builds `L − ½·δ`, computes the same three products on
  whole arrays and negates the result.

  Over the extended reals the roundings to bf16 are the identity and every product is the exact sum, so the kernel's
  output array is `layer A C (½δ − L)` (KernelRun.lean, from Payload / Block / Whole) and the reference's is
  `−layer A C (L − ½δ)` (Reference.lean). The two masks are opposite real numbers entry by entry (Mask.lean), and
  negation passes through the outermost sum because every term is a real number — which is where the precondition,
  finite inputs, is used (Finite.lean, Layer.lean `layer_neg`). The ideal pass rewrote nothing, so the kernel's
  idealization is the kernel's own text; the three frames are the generated ones.
-/
import proofs.«178304_j50002009260129_2_alg».proof.Defs
import proofs.«178304_j50002009260129_2_alg».proof.Proof.Gen.Kernel
import proofs.«178304_j50002009260129_2_alg».proof.Proof.Gen.Kernel.Skeleton
import proofs.«178304_j50002009260129_2_alg».proof.Proof.Gen.Kernel.Loops
import proofs.«178304_j50002009260129_2_alg».proof.Proof.Gen.Kernel.Launch
import proofs.«178304_j50002009260129_2_alg».proof.Proof.Gen.Kernel.Points
import proofs.«178304_j50002009260129_2_alg».proof.Proof.Gen.Kernel.Frame
import proofs.«178304_j50002009260129_2_alg».proof.Proof.Gen.KernelIdeal
import proofs.«178304_j50002009260129_2_alg».proof.Proof.Gen.KernelIdeal.Skeleton
import proofs.«178304_j50002009260129_2_alg».proof.Proof.Gen.KernelIdeal.Loops
import proofs.«178304_j50002009260129_2_alg».proof.Proof.Gen.KernelIdeal.Launch
import proofs.«178304_j50002009260129_2_alg».proof.Proof.Gen.KernelIdeal.Points
import proofs.«178304_j50002009260129_2_alg».proof.Proof.Gen.KernelIdeal.Frame
import proofs.«178304_j50002009260129_2_alg».proof.Proof.Gen.ReferenceIdeal
import proofs.«178304_j50002009260129_2_alg».proof.Proof.Gen.Pre_finite_inputs
import proofs.«178304_j50002009260129_2_alg».proof.Proof.Gen.KernelIdeal.Value
import proofs.«178304_j50002009260129_2_alg».proof.Proof.Gen.ReferenceIdeal.Run
import proofs.«178304_j50002009260129_2_alg».proof.Proof.Gen.ReferenceIdeal.Read
import proofs.«178304_j50002009260129_2_alg».proof.Proof.KernelRun
import proofs.«178304_j50002009260129_2_alg».proof.Proof.Reference
import proofs.«178304_j50002009260129_2_alg».proof.Proof.Finite
import Idealize.ShloMosaic.Adequacy
import Idealize.ShloMosaic.Init

noncomputable section

namespace Cert.Proof

open Idealize.ShloMosaic Idealize.ShloMosaic.TcCoe Idealize.SL.Sem Cert.GaussLayer

/-- The word-level kernel program runs and leaves its arguments unchanged: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs return their first argument; the kernel's second result is `layer A C (½δ − L)`, the reference's
    `−layer A C (L − ½δ)`, of arguments that agree and are finite: equal (`layer_neg`). -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => layer (m ((c.tc : Thread Cert.KernelIdeal.nD Cert.KernelIdeal.τ).loc Cert.KernelIdeal.main_arg2))
      (m ((c.tc : Thread Cert.KernelIdeal.nD Cert.KernelIdeal.τ).loc Cert.KernelIdeal.main_arg1)) Mask.maskNeg, ?_, ?_⟩
  · exact (θ_run Cert.KernelIdeal.defs _ _).mono (fun r h c => ⟨(h c).2.1, (h c).1, (h c).2⟩) (KernelRun.run m ρ)
  · refine (θ_run Cert.ReferenceIdeal.defs _ _).mono (fun r h c => ⟨(h c).1.trans (hagree c).1, ?_, (h c).2.2⟩)
      (Cert.ReferenceIdeal.Value.run (F := Ideal) m' ρ')
    obtain ⟨hC, hA⟩ := Finite.real_of_pre _ _ _ (hpre c)
    rw [(h c).2.1, Cert.ReferenceIdeal.Read.val_main_v17_eq, (hagree c).2.1, (hagree c).2.2]
    funext i
    rw [Reference.value_eq]
    exact (layer_neg _ _ hA hC i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
